-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512x3 : Shape := ⟨4, ![64, 512, 512, 3]⟩
abbrev S64x3072 : Shape := ⟨2, ![64, 3072]⟩
abbrev S_ : Shape := ⟨0, ![]⟩

class Facts : Prop where
  bcast_S_S64x512x512x3 : S_.BroadcastsInDim S64x512x512x3 (![] : Fin 0 → Fin S64x512x512x3.rank)
  reducesTo_S64x512x512x3_S_d0_1_2_3 : S64x512x512x3.ReducesTo [0, 1, 2, 3] S_
  h_S_ : 0 < S_.numel

variable [Facts]

def fn {F : FTy → Type} [FloatOps F] (main_arg0 : FVec F S64x512x512x3 .f32) (main_arg1 : IVec S64x3072 32) : IVec S_ 1 :=
  let main_v0 : FVec F S64x512x512x3 .f32 := Host.absf main_arg0
  let main_cst : FVec F S_ .f32 := constant S_ .f32 0x7F800000#32
  let main_v1 : FVec F S64x512x512x3 .f32 := broadcastInDim S64x512x512x3 ![] bcast_S_S64x512x512x3 main_cst
  let main_v2 : IVec S64x512x512x3 1 := cmpf .olt main_v0 main_v1
  let main_c : IVec S_ 1 := constantI S_ 1 1#1
  let main_v3 : IVec S_ 1 := (fun x v => Host.reduce IntOp.andi x v reducesTo_S64x512x512x3_S_d0_1_2_3 h_S_) main_v2 main_c
  main_v3
-- ==== Kernel.lean ====
abbrev S64x512x512x3 : Shape := ⟨4, ![64, 512, 512, 3]⟩
abbrev S64x3072 : Shape := ⟨2, ![64, 3072]⟩
abbrev S_ : Shape := ⟨0, ![]⟩
abbrev S64x4096 : Shape := ⟨2, ![64, 4096]⟩
abbrev S64 : Shape := ⟨1, ![64]⟩
abbrev S64x1 : Shape := ⟨2, ![64, 1]⟩
abbrev S64x3072x1 : Shape := ⟨3, ![64, 3072, 1]⟩
abbrev S64x3072x2 : Shape := ⟨3, ![64, 3072, 2]⟩
abbrev S64x64x64 : Shape := ⟨3, ![64, 64, 64]⟩
abbrev S64x512x1536 : Shape := ⟨3, ![64, 512, 1536]⟩
abbrev S1x512x1536 : Shape := ⟨3, ![1, 512, 1536]⟩
abbrev S1x64x64 : Shape := ⟨3, ![1, 64, 64]⟩
abbrev S512x64 : Shape := ⟨2, ![512, 64]⟩
abbrev S64x64 : Shape := ⟨2, ![64, 64]⟩
abbrev S64x1536 : Shape := ⟨2, ![64, 1536]⟩
abbrev S512x1536 : Shape := ⟨2, ![512, 1536]⟩

abbrev nBuf : Space → Nat
  | .hbm => 31
  | .vmem => 6
  | .smem => 0
  | _ => 0

abbrev bufTy : (tb : Table) → Fin (tcTables nBuf tb) → BufTy
  | .hbm, ⟨0, _⟩ => ⟨S64x512x512x3, .f32⟩
  | .hbm, ⟨1, _⟩ => ⟨S64x3072, .i32⟩
  | .hbm, ⟨2, _⟩ => ⟨S_, .f32⟩
  | .hbm, ⟨3, _⟩ => ⟨S64x4096, .f32⟩
  | .hbm, ⟨4, _⟩ => ⟨S64, .i32⟩
  | .hbm, ⟨5, _⟩ => ⟨S64x1, .i32⟩
  | .hbm, ⟨6, _⟩ => ⟨S_, .i32⟩
  | .hbm, ⟨7, _⟩ => ⟨S64x1, .i32⟩
  | .hbm, ⟨8, _⟩ => ⟨S64x1, .i1⟩
  | .hbm, ⟨9, _⟩ => ⟨S_, .i32⟩
  | .hbm, ⟨10, _⟩ => ⟨S64x1, .i32⟩
  | .hbm, ⟨11, _⟩ => ⟨S64x1, .i32⟩
  | .hbm, ⟨12, _⟩ => ⟨S64x1, .i32⟩
  | .hbm, ⟨13, _⟩ => ⟨S_, .i32⟩
  | .hbm, ⟨14, _⟩ => ⟨S64x3072, .i32⟩
  | .hbm, ⟨15, _⟩ => ⟨S64x3072, .i1⟩
  | .hbm, ⟨16, _⟩ => ⟨S_, .i32⟩
  | .hbm, ⟨17, _⟩ => ⟨S64x3072, .i32⟩
  | .hbm, ⟨18, _⟩ => ⟨S64x3072, .i32⟩
  | .hbm, ⟨19, _⟩ => ⟨S64x3072, .i32⟩
  | .hbm, ⟨20, _⟩ => ⟨S64x3072, .i32⟩
  | .hbm, ⟨21, _⟩ => ⟨S64x3072x1, .i32⟩
  | .hbm, ⟨22, _⟩ => ⟨S64x3072x1, .i32⟩
  | .hbm, ⟨23, _⟩ => ⟨S64x3072x2, .i32⟩
  | .hbm, ⟨24, _⟩ => ⟨S_, .f32⟩
  | .hbm, ⟨25, _⟩ => ⟨S64x3072, .f32⟩
  | .hbm, ⟨26, _⟩ => ⟨S64x4096, .f32⟩
  | .hbm, ⟨27, _⟩ => ⟨S64x64x64, .f32⟩
  | .hbm, ⟨28, _⟩ => ⟨S64x512x1536, .f32⟩
  | .hbm, ⟨29, _⟩ => ⟨S64x512x1536, .f32⟩
  | .hbm, ⟨30, _⟩ => ⟨S64x512x512x3, .f32⟩
  | .local _ .vmem, ⟨0, _⟩ => ⟨S1x512x1536, .f32⟩
  | .local _ .vmem, ⟨1, _⟩ => ⟨S1x512x1536, .f32⟩
  | .local _ .vmem, ⟨2, _⟩ => ⟨S1x64x64, .f32⟩
  | .local _ .vmem, ⟨3, _⟩ => ⟨S1x64x64, .f32⟩
  | .local _ .vmem, ⟨4, _⟩ => ⟨S1x512x1536, .f32⟩
  | .local _ .vmem, ⟨5, _⟩ => ⟨S1x512x1536, .f32⟩
  | _, _ => ⟨S64x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64x4096 : S_.BroadcastsInDim S64x4096 (![] : Fin 0 → Fin S64x4096.rank)
  bcast_S64_S64x1_0 : S64.BroadcastsInDim S64x1 (![0] : Fin 1 → Fin S64x1.rank)
  bcast_S_S64x1 : S_.BroadcastsInDim S64x1 (![] : Fin 0 → Fin S64x1.rank)
  bcast_S_S64x3072 : S_.BroadcastsInDim S64x3072 (![] : Fin 0 → Fin S64x3072.rank)
  bcast_S64x1_S64x3072_0_1 : S64x1.BroadcastsInDim S64x3072 (![0, 1] : Fin 2 → Fin S64x3072.rank)
  bcast_S64x3072_S64x3072x1_0_1 : S64x3072.BroadcastsInDim S64x3072x1 (![0, 1] : Fin 2 → Fin S64x3072x1.rank)
  concatenates_S64x3072x1_S64x3072x1_S64x3072x2_d2 : Shape.Concatenates [S64x3072x1, S64x3072x1] S64x3072x2 2
  shapeCasts_S64x4096_S64x64x64 : S64x4096.ShapeCasts S64x64x64
  shapeCasts_S64x512x512x3_S64x512x1536 : S64x512x512x3.ShapeCasts S64x512x1536
  iota_S512x64_d0_w32 : S512x64.Iotas .tc 32 [0]
  iota_S512x64_d1_w32 : S512x64.Iotas .tc 32 [1]
  natLt_1_32 : 1 < 32
  bitsLt_bf16_f32 : FTy.bits .bf16 < FTy.bits .f32
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  iota_S64x1536_d1_w32 : S64x1536.Iotas .tc 32 [1]
  iota_S64x1536_d0_w32 : S64x1536.Iotas .tc 32 [0]
  inb_S1x512x1536_S1x512x1536_0_0_0 : ∀ a, (![0, 0, 0] : Fin 3 → Nat) a + S1x512x1536.size a ≤ S1x512x1536.size a
  h_S1x512x1536 : 0 < S1x512x1536.numel
  shapeCasts_S1x512x1536_S512x1536 : S1x512x1536.ShapeCasts S512x1536
  shapeCasts_S512x1536_S1x512x1536 : S512x1536.ShapeCasts S1x512x1536
  shapeCasts_S64x512x1536_S64x512x512x3 : S64x512x1536.ShapeCasts S64x512x512x3
  scatter_S64x4096_S64x3072x2_S64x3072_n_01_01_2_wf : ScatterDims.WF S64x4096 S64x3072x2 S64x3072 [] [0, 1] [0, 1] 2
  dot_S512x64_S64x64_S512x64_1_0_0_1_n_n_wf : DotDims.WF S512x64 S64x64 S512x64 [1] [0] [0] [1] [] []
  dot_S512x64_S64x1536_S512x1536_1_0_0_1_n_n_wf : DotDims.WF S512x64 S64x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1536.size a ≤ S64x512x1536.size a
  hwx0_0 : ∀ i : grid0.Coords, EltTy.bits .f32 = 32 ∨ (Rect.block (s := S64x512x1536) S1x512x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S64x64x64.size a
  hwx0_1 : ∀ i : grid0.Coords, EltTy.bits .f32 = 32 ∨ (Rect.block (s := S64x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1536.size a ≤ S64x512x1536.size a
  hwx0_2 : ∀ i : grid0.Coords, EltTy.bits .f32 = 32 ∨ (Rect.block (s := S64x512x1536) S1x512x1536.size (cc0_transform_2 i) (hinb0_2 i)).WholeWords (EltTy.packing .f32)

variable [Facts₀]

def scatter_S64x4096_S64x3072x2_S64x3072_n_01_01_2 : ScatterDims S64x4096 S64x3072x2 S64x3072 where
  updateWindowDims := []
  insertedWindowDims := [0, 1]
  scatterDimsToOperandDims := [0, 1]
  indexVectorDim := 2
  wf := scatter_S64x4096_S64x3072x2_S64x3072_n_01_01_2_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1536_S512x1536_1_0_0_1_n_n : DotDims S512x64 S64x1536 S512x1536 where
  lhsContracting := [1]
  rhsContracting := [0]
  lhsNonContracting := [0]
  rhsNonContracting := [1]
  lhsBatch := []
  rhsBatch := []
  wf := dot_S512x64_S64x1536_S512x1536_1_0_0_1_n_n_wf

abbrev win0_0 : Pipeline.Window sig grid0 :=
  Pipeline.Window.ofSpec (Memref.whole main_v20) S1x512x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x512x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x512x3 : Shape := ⟨4, ![64, 512, 512, 3]⟩
abbrev S64x3072 : Shape := ⟨2, ![64, 3072]⟩
abbrev S_ : Shape := ⟨0, ![]⟩
abbrev S64x4096 : Shape := ⟨2, ![64, 4096]⟩
abbrev S64 : Shape := ⟨1, ![64]⟩
abbrev S64x1 : Shape := ⟨2, ![64, 1]⟩
abbrev S64x3072x1 : Shape := ⟨3, ![64, 3072, 1]⟩
abbrev S64x3072x2 : Shape := ⟨3, ![64, 3072, 2]⟩
abbrev S64x64x64 : Shape := ⟨3, ![64, 64, 64]⟩
abbrev S64x64x8x64 : Shape := ⟨4, ![64, 64, 8, 64]⟩
abbrev S64x512x64 : Shape := ⟨3, ![64, 512, 64]⟩
abbrev S64x512x64x8 : Shape := ⟨4, ![64, 512, 64, 8]⟩
abbrev S64x512x512 : Shape := ⟨3, ![64, 512, 512]⟩
abbrev S64x512x512x1 : Shape := ⟨4, ![64, 512, 512, 1]⟩

abbrev nBuf : Space → Nat
  | .hbm => 35
  | .vmem => 0
  | .smem => 0
  | _ => 0

abbrev bufTy : (tb : Table) → Fin (tcTables nBuf tb) → BufTy
  | .hbm, ⟨0, _⟩ => ⟨S64x512x512x3, .f32⟩
  | .hbm, ⟨1, _⟩ => ⟨S64x3072, .i32⟩
  | .hbm, ⟨2, _⟩ => ⟨S_, .f32⟩
  | .hbm, ⟨3, _⟩ => ⟨S64x4096, .f32⟩
  | .hbm, ⟨4, _⟩ => ⟨S64, .i32⟩
  | .hbm, ⟨5, _⟩ => ⟨S64x1, .i32⟩
  | .hbm, ⟨6, _⟩ => ⟨S_, .i32⟩
  | .hbm, ⟨7, _⟩ => ⟨S64x1, .i32⟩
  | .hbm, ⟨8, _⟩ => ⟨S64x1, .i1⟩
  | .hbm, ⟨9, _⟩ => ⟨S_, .i32⟩
  | .hbm, ⟨10, _⟩ => ⟨S64x1, .i32⟩
  | .hbm, ⟨11, _⟩ => ⟨S64x1, .i32⟩
  | .hbm, ⟨12, _⟩ => ⟨S64x1, .i32⟩
  | .hbm, ⟨13, _⟩ => ⟨S_, .i32⟩
  | .hbm, ⟨14, _⟩ => ⟨S64x3072, .i32⟩
  | .hbm, ⟨15, _⟩ => ⟨S64x3072, .i1⟩
  | .hbm, ⟨16, _⟩ => ⟨S_, .i32⟩
  | .hbm, ⟨17, _⟩ => ⟨S64x3072, .i32⟩
  | .hbm, ⟨18, _⟩ => ⟨S64x3072, .i32⟩
  | .hbm, ⟨19, _⟩ => ⟨S64x3072, .i32⟩
  | .hbm, ⟨20, _⟩ => ⟨S64x3072, .i32⟩
  | .hbm, ⟨21, _⟩ => ⟨S64x3072x1, .i32⟩
  | .hbm, ⟨22, _⟩ => ⟨S64x3072x1, .i32⟩
  | .hbm, ⟨23, _⟩ => ⟨S64x3072x2, .i32⟩
  | .hbm, ⟨24, _⟩ => ⟨S_, .f32⟩
  | .hbm, ⟨25, _⟩ => ⟨S64x3072, .f32⟩
  | .hbm, ⟨26, _⟩ => ⟨S64x4096, .f32⟩
  | .hbm, ⟨27, _⟩ => ⟨S64x64x64, .f32⟩
  | .hbm, ⟨28, _⟩ => ⟨S64x64x8x64, .f32⟩
  | .hbm, ⟨29, _⟩ => ⟨S64x512x64, .f32⟩
  | .hbm, ⟨30, _⟩ => ⟨S64x512x64x8, .f32⟩
  | .hbm, ⟨31, _⟩ => ⟨S64x512x512, .f32⟩
  | .hbm, ⟨32, _⟩ => ⟨S64x512x512x1, .f32⟩
  | .hbm, ⟨33, _⟩ => ⟨S64x512x512x3, .f32⟩
  | .hbm, ⟨34, _⟩ => ⟨S64x512x512x3, .f32⟩
  | _, _ => ⟨S64x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  bcast_S_S64x4096 : S_.BroadcastsInDim S64x4096 (![] : Fin 0 → Fin S64x4096.rank)
  bcast_S64_S64x1_0 : S64.BroadcastsInDim S64x1 (![0] : Fin 1 → Fin S64x1.rank)
  bcast_S_S64x1 : S_.BroadcastsInDim S64x1 (![] : Fin 0 → Fin S64x1.rank)
  bcast_S_S64x3072 : S_.BroadcastsInDim S64x3072 (![] : Fin 0 → Fin S64x3072.rank)
  bcast_S64x1_S64x3072_0_1 : S64x1.BroadcastsInDim S64x3072 (![0, 1] : Fin 2 → Fin S64x3072.rank)
  bcast_S64x3072_S64x3072x1_0_1 : S64x3072.BroadcastsInDim S64x3072x1 (![0, 1] : Fin 2 → Fin S64x3072x1.rank)
  concatenates_S64x3072x1_S64x3072x1_S64x3072x2_d2 : Shape.Concatenates [S64x3072x1, S64x3072x1] S64x3072x2 2
  shapeCasts_S64x4096_S64x64x64 : S64x4096.ShapeCasts S64x64x64
  bcast_S64x64x64_S64x64x8x64_0_1_3 : S64x64x64.BroadcastsInDim S64x64x8x64 (![0, 1, 3] : Fin 3 → Fin S64x64x8x64.rank)
  shapeCasts_S64x64x8x64_S64x512x64 : S64x64x8x64.ShapeCasts S64x512x64
  bcast_S64x512x64_S64x512x64x8_0_1_2 : S64x512x64.BroadcastsInDim S64x512x64x8 (![0, 1, 2] : Fin 3 → Fin S64x512x64x8.rank)
  shapeCasts_S64x512x64x8_S64x512x512 : S64x512x64x8.ShapeCasts S64x512x512
  bcast_S64x512x512_S64x512x512x1_0_1_2 : S64x512x512.BroadcastsInDim S64x512x512x1 (![0, 1, 2] : Fin 3 → Fin S64x512x512x1.rank)
  bcast_S64x512x512x1_S64x512x512x3_0_1_2_3 : S64x512x512x1.BroadcastsInDim S64x512x512x3 (![0, 1, 2, 3] : Fin 4 → Fin S64x512x512x3.rank)
  scatter_S64x4096_S64x3072x2_S64x3072_n_01_01_2_wf : ScatterDims.WF S64x4096 S64x3072x2 S64x3072 [] [0, 1] [0, 1] 2

variable [Facts₀]

def scatter_S64x4096_S64x3072x2_S64x3072_n_01_01_2 : ScatterDims S64x4096 S64x3072x2 S64x3072 where
  updateWindowDims := []
  insertedWindowDims := [0, 1]
  scatterDimsToOperandDims := [0, 1]
  indexVectorDim := 2
  wf := scatter_S64x4096_S64x3072x2_S64x3072_n_01_01_2_wf

class Facts : Prop extends Facts₀ where

variable [Facts]
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.LibTransposedRhsDot.lean ====
/-
  The product of an M×K matrix with the transpose of an N×K matrix, read at one entry.

  Both operands are contracted along their last axis, so entry (p, q) of the result is the sum over
  k of left (p, k) times right (q, k). Stated for the dimension record `DotDims.transposedRhs M K N`
  at the exact instance, for the accelerator's product into the zero accumulator and for the host's
  product; general in the three extents. A printed record with contracting axes [1] and [1], free
  axes [0] and [0] and no batch axes is this record (the two differ only in a proof field).
-/
import Idealize.ShloMosaic.Lib.ValueIdx
import Idealize.ShloMosaic.PureOps.Ideal.Laws

noncomputable section

open scoped BigOperators

namespace Cert.LibTransposedRhsDot

open Idealize.ShloMosaic Idealize.ShloMosaic.ValueIdx

variable {M K N : ℕ}

/-- The left operand's index for result entry (p, q) and contraction position k is (p, k). -/
theorem lhsIdx_eq (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a; apply Fin.ext
  match a with
  | ⟨0, _⟩ =>
    show ((DotDims.transposedRhs M K N).lhsIdx (ix2 p q) _ 0).val = p.val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl _ _).trans hk

/-- The right operand's index for result entry (p, q) and contraction position k is (q, k). -/
theorem rhsIdx_eq (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a; apply Fin.ext
  match a with
  | ⟨0, _⟩ =>
    show ((DotDims.transposedRhs M K N).rhsIdx (ix2 p q) _ 0).val = q.val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl _ _).trans hk

/-- The accelerator's product into the zero accumulator: entry (p, q) is the sum over k of
    left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant (F := Ideal) ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (contrEquiv1 (DotDims.transposedRhs M K N) K rfl rfl).symm]
  refine Finset.sum_congr rfl fun k _ => ?_
  rw [lhsIdx_eq, rhsIdx_eq]

/-- The host's product of the same shape: the same sum. -/
theorem dotGeneral_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) := by
  show FloatOps.dotGeneral _ prec _ l r (ix2 p q) = _
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhsDot

end
-- ==== Proof.LibNearestResize.lean ====
/-
  Nearest-neighbour enlargement of a square matrix written as two matrix products with a 0/1 matrix.

  For extents H (target side), h (source side) and a divisor word d, the matrix R : [H, h] has R (p, k) = 1 when the
  floor quotient of p by d is k and 0 otherwise: one 1 per row.  It is built on 32-bit words from the row number and the
  column number: the signed quotient, corrected downwards when the signs of dividend and divisor differ and the
  remainder is not zero, compared with the column number, and the resulting bit converted to a float.
  On the extended reals 0 * x = 0 for every x (also the infinite ones) and a sum with at most one nonzero term is that
  term, so for any X : [h, h]
      ((R · X) · Rᵀ) (i, j) = X (i / n, j / n)
  whenever the word quotient of every row number p < H is p / n and p / n < h.  No finiteness of X is needed.
  General in H, h, n and the two precision keys of the products.
-/
import Idealize.ShloMosaic.PureOps.Ideal
import Idealize.ShloMosaic.PureOps.Ideal.Laws
import Idealize.ShloMosaic.Lib.ValueIdx
import Idealize.ShloMosaic.Lib.Pipeline.Value
import proofs.«178900_j67113158967612_1_alg».proof.Proof.LibPlainDot
import proofs.«178900_j67113158967612_1_alg».proof.Proof.LibTransposedRhsDot

noncomputable section

open scoped BigOperators

namespace Cert.LibNearestResize

open Idealize.ShloMosaic Idealize.ShloMosaic.ValueIdx

/-! ## The words -/

/-- The floor quotient of two signed words, as it is computed: the quotient rounded toward zero, less one when the
    signs of `x` and `d` differ and the remainder is not zero. -/
def floorDivWord (x d : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32)
    (IntOp.divsi .vector x d)

/-- The bit "word `a` equals word `b`", widened and converted, is 1 or 0 on the extended reals. -/
theorem indicator_word (a b : ℕ) (ha : a < 2 ^ 32) (hb : b < 2 ^ 32) :
    FloatOps.sitofp (F := Ideal) .f32 ((IntOp.cmpi .eq (BitVec.ofNat 32 a) (BitVec.ofNat 32 b)).setWidth 32)
      = if a = b then (1 : EReal) else 0 := by
  show ((((IntOp.cmpi .eq (BitVec.ofNat 32 a) (BitVec.ofNat 32 b)).setWidth 32).toInt : ℝ) : EReal) = _
  by_cases h : a = b
  · subst h
    rw [if_pos rfl]
    have e : (IntOp.cmpi .eq (BitVec.ofNat 32 a) (BitVec.ofNat 32 a)).setWidth 32 = 1#32 := by
      simp [IntOp.cmpi]
    rw [e]; norm_num
  · rw [if_neg h]
    have hne : BitVec.ofNat 32 a ≠ BitVec.ofNat 32 b := by
      intro e
      have := congrArg BitVec.toNat e
      simp only [BitVec.toNat_ofNat] at this
      rw [Nat.mod_eq_of_lt ha, Nat.mod_eq_of_lt hb] at this
      exact h this
    have hbeq : (BitVec.ofNat 32 a == BitVec.ofNat 32 b) = false := beq_eq_false_iff_ne.mpr hne
    have e : (IntOp.cmpi .eq (BitVec.ofNat 32 a) (BitVec.ofNat 32 b)).setWidth 32 = 0#32 := by
      simp [IntOp.cmpi, hbeq]
    rw [e]; norm_num

/-! ## The 0/1 matrix -/

section Matrix
variable {F : FTy → Type} [FloatOps F]

/-- The matrix R as a vector program over any extents: row number, column number, floor quotient of the row number by
    `d`, comparison, conversion. -/
def repMat (H h : ℕ) (h0 : (⟨2, ![H, h]⟩ : Shape).Iotas .tc 32 [0]) (h1 : (⟨2, ![H, h]⟩ : Shape).Iotas .tc 32 [1])
    (d : BitVec 32) : FVec F ⟨2, ![H, h]⟩ .f32 :=
  sitofp .f32 (extui 32 (cmpi .eq
    (select
      (andi
        (cmpi .ne
          (subi (extui 32 (cmpi .sgt (iota .tc ⟨2, ![H, h]⟩ 32 [0] h0) (broadcast ⟨2, ![H, h]⟩ 0#32)) (by decide))
                (extui 32 (cmpi .slt (iota .tc ⟨2, ![H, h]⟩ 32 [0] h0) (broadcast ⟨2, ![H, h]⟩ 0#32)) (by decide)))
          (broadcast ⟨2, ![H, h]⟩ (Scalar.subi (Scalar.extui (Scalar.cmpi .sgt d 0#32)) (Scalar.extui (Scalar.cmpi .slt d 0#32)))))
        (cmpi .ne (remsi (iota .tc ⟨2, ![H, h]⟩ 32 [0] h0) (broadcast ⟨2, ![H, h]⟩ d)) (broadcast ⟨2, ![H, h]⟩ 0#32)))
      (subi (divsi (iota .tc ⟨2, ![H, h]⟩ 32 [0] h0) (broadcast ⟨2, ![H, h]⟩ d)) (broadcast ⟨2, ![H, h]⟩ 1#32))
      (divsi (iota .tc ⟨2, ![H, h]⟩ 32 [0] h0) (broadcast ⟨2, ![H, h]⟩ d)))
    (iota .tc ⟨2, ![H, h]⟩ 32 [1] h1)) (by decide))

/-- Entry (p, k) of R in words: the converted bit "floor quotient of p by d equals k". -/
theorem repMat_apply_word (H h : ℕ) (h0 : (⟨2, ![H, h]⟩ : Shape).Iotas .tc 32 [0])
    (h1 : (⟨2, ![H, h]⟩ : Shape).Iotas .tc 32 [1]) (d : BitVec 32) (p : Fin H) (k : Fin h) :
    repMat (F := F) H h h0 h1 d (ix2 p k)
      = FloatOps.sitofp .f32 ((IntOp.cmpi .eq (floorDivWord (BitVec.ofNat 32 p.val) d) (BitVec.ofNat 32 k.val)).setWidth 32) := by
  have e0 : iota .tc ⟨2, ![H, h]⟩ 32 [0] h0 (ix2 p k) = BitVec.ofNat 32 p.val :=
    iota_single_apply .tc ⟨2, ![H, h]⟩ 32 0 h0 (ix2 p k)
  have e1 : iota .tc ⟨2, ![H, h]⟩ 32 [1] h1 (ix2 p k) = BitVec.ofNat 32 k.val :=
    iota_single_apply .tc ⟨2, ![H, h]⟩ 32 1 h1 (ix2 p k)
  show FloatOps.sitofp .f32 ((IntOp.cmpi .eq (floorDivWord (iota .tc ⟨2, ![H, h]⟩ 32 [0] h0 (ix2 p k)) d)
      (iota .tc ⟨2, ![H, h]⟩ 32 [1] h1 (ix2 p k))).setWidth 32) = _
  rw [e0, e1]

end Matrix

/-- Entry (p, k) of R on the extended reals: 1 when p / n = k, else 0 — given that the word quotient of the row number
    p by d is the natural quotient p / n. -/
theorem repMat_apply (H h n : ℕ) (h0 : (⟨2, ![H, h]⟩ : Shape).Iotas .tc 32 [0])
    (h1 : (⟨2, ![H, h]⟩ : Shape).Iotas .tc 32 [1]) (d : BitVec 32) (hh : h ≤ 2 ^ 32)
    (p : Fin H) (hfd : floorDivWord (BitVec.ofNat 32 p.val) d = BitVec.ofNat 32 (p.val / n)) (hlt : p.val / n < h)
    (k : Fin h) :
    repMat (F := Ideal) H h h0 h1 d (ix2 p k) = if p.val / n = k.val then (1 : EReal) else 0 := by
  rw [repMat_apply_word, hfd]
  exact indicator_word _ _ (by omega) (by have := k.isLt; omega)

/-! ## A sum with one nonzero term -/

/-- Σ_k [a = k] · f k = f a on the extended reals: every other term is 0 · f k = 0. -/
theorem sum_indicator_mul {K : ℕ} (a : Fin K) (f : Fin K → EReal) :
    ∑ k : Fin K, (if a.val = k.val then (1 : EReal) else 0) * f k = f a := by
  rw [Finset.sum_eq_single a]
  · rw [if_pos rfl, one_mul]
  · intro k _ hk
    rw [if_neg (fun e => hk (Fin.ext e.symm)), zero_mul]
  · intro ha; exact absurd (Finset.mem_univ a) ha

/-- The same with the 0/1 factor on the right. -/
theorem sum_mul_indicator {K : ℕ} (a : Fin K) (f : Fin K → EReal) :
    ∑ k : Fin K, f k * (if a.val = k.val then (1 : EReal) else 0) = f a := by
  rw [← sum_indicator_mul a f]
  exact Finset.sum_congr rfl fun k _ => mul_comm _ _

/-! ## The two products -/

/-- (R · X) · Rᵀ at (i, j) is X at (i / n, j / n): the first product picks row i / n of X, the second column j / n. -/
theorem upsample_apply (H h n : ℕ) (h0 : (⟨2, ![H, h]⟩ : Shape).Iotas .tc 32 [0])
    (h1 : (⟨2, ![H, h]⟩ : Shape).Iotas .tc 32 [1]) (d : BitVec 32) (hh : h ≤ 2 ^ 32)
    (hfd : ∀ p : Fin H, floorDivWord (BitVec.ofNat 32 p.val) d = BitVec.ofNat 32 (p.val / n))
    (hlt : ∀ p : Fin H, p.val / n < h)
    (prec1 prec2 : Option ContractPrecision) (X : FVec Ideal ⟨2, ![h, h]⟩ .f32) (i j : Fin H) :
    matmul (DotDims.transposedRhs H h H) prec2
        (matmul (DotDims.plain H h h) prec1 (repMat (F := Ideal) H h h0 h1 d) X
          (constant (F := Ideal) ⟨2, ![H, h]⟩ .f32 0x00000000#32))
        (repMat (F := Ideal) H h h0 h1 d) (constant (F := Ideal) ⟨2, ![H, H]⟩ .f32 0x00000000#32) (ix2 i j)
      = X (ix2 (⟨i.val / n, hlt i⟩ : Fin h) (⟨j.val / n, hlt j⟩ : Fin h)) := by
  rw [Cert.LibTransposedRhsDot.matmul_zero_apply]
  have hrow : ∀ k : Fin h,
      matmul (DotDims.plain H h h) prec1 (repMat (F := Ideal) H h h0 h1 d) X
          (constant (F := Ideal) ⟨2, ![H, h]⟩ .f32 0x00000000#32) (ix2 i k)
        = X (ix2 (⟨i.val / n, hlt i⟩ : Fin h) k) := by
    intro k
    refine (Cert.LibPlainDot.matmul_zero_apply H h h prec1 _ X (ix2 i k)).trans ?_
    have : ∀ l : Fin h, repMat (F := Ideal) H h h0 h1 d (ix2 ((ix2 i k : (⟨2, ![H, h]⟩ : Shape).Idx) 0) l)
        = if (⟨i.val / n, hlt i⟩ : Fin h).val = l.val then (1 : EReal) else 0 :=
      fun l => repMat_apply H h n h0 h1 d hh i (hfd i) (hlt i) l
    simp only [this]
    exact sum_indicator_mul (⟨i.val / n, hlt i⟩ : Fin h) fun l => X (ix2 l ((ix2 i k : (⟨2, ![H, h]⟩ : Shape).Idx) 1))
  simp only [hrow]
  have : ∀ k : Fin h, repMat (F := Ideal) H h h0 h1 d (ix2 j k)
      = if (⟨j.val / n, hlt j⟩ : Fin h).val = k.val then (1 : EReal) else 0 :=
    fun k => repMat_apply H h n h0 h1 d hh j (hfd j) (hlt j) k
  simp only [this]
  exact sum_mul_indicator (⟨j.val / n, hlt j⟩ : Fin h) fun k => X (ix2 (⟨i.val / n, hlt i⟩ : Fin h) k)

/-! ## The same with the two leading unit axes of an image block -/

/-- An [a, b] matrix viewed as [1, 1, a, b], read at (0, 0, i, j), is the matrix at (i, j). -/
theorem shapeCast_lead2_apply {α : Type} (a b : ℕ) (v : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ v h (ix4 (0 : Fin 1) (0 : Fin 1) i j) = v (ix2 i j) :=
  shapeCast_apply v h _ (ix2 i j) (by
    rw [Shape.rowMajor_val_two, Shape.rowMajor_val_four]
    show i.val * b + j.val = (((0 : ℕ) * 1 + 0) * a + i.val) * b + j.val
    simp)

/-- A [1, 1, a, b] block viewed as an [a, b] matrix, read at (i, j), is the block at (0, 0, i, j). -/
theorem shapeCast_drop2_apply {α : Type} (a b : ℕ) (v : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ v h (ix2 i j) = v (ix4 (0 : Fin 1) (0 : Fin 1) i j) :=
  shapeCast_apply v h _ (ix4 (0 : Fin 1) (0 : Fin 1) i j) (by
    rw [Shape.rowMajor_val_two, Shape.rowMajor_val_four]
    show (((0 : ℕ) * 1 + 0) * a + i.val) * b + j.val = i.val * b + j.val
    simp)

/-- The whole computation on one image block X : [1, 1, h, h]: view it as a matrix, form (R · X) · Rᵀ, view the result
    as a [1, 1, H, H] block. -/
def upsampled {F : FTy → Type} [FloatOps F] (H h : ℕ) (h0 : (⟨2, ![H, h]⟩ : Shape).Iotas .tc 32 [0])
    (h1 : (⟨2, ![H, h]⟩ : Shape).Iotas .tc 32 [1]) (d : BitVec 32) (prec1 prec2 : Option ContractPrecision)
    (hin : (⟨4, ![1, 1, h, h]⟩ : Shape).ShapeCasts ⟨2, ![h, h]⟩)
    (hout : (⟨2, ![H, H]⟩ : Shape).ShapeCasts ⟨4, ![1, 1, H, H]⟩)
    (X : FVec F ⟨4, ![1, 1, h, h]⟩ .f32) : FVec F ⟨4, ![1, 1, H, H]⟩ .f32 :=
  shapeCast ⟨4, ![1, 1, H, H]⟩
    (matmul (DotDims.transposedRhs H h H) prec2
      (matmul (DotDims.plain H h h) prec1 (repMat H h h0 h1 d) (shapeCast ⟨2, ![h, h]⟩ X hin)
        (constant ⟨2, ![H, h]⟩ .f32 0x00000000#32))
      (repMat H h h0 h1 d) (constant ⟨2, ![H, H]⟩ .f32 0x00000000#32)) hout

/-- Its entry (0, 0, i, j) is X at (0, 0, i / n, j / n). -/
theorem upsampled_apply (H h n : ℕ) (h0 : (⟨2, ![H, h]⟩ : Shape).Iotas .tc 32 [0])
    (h1 : (⟨2, ![H, h]⟩ : Shape).Iotas .tc 32 [1]) (d : BitVec 32) (hh : h ≤ 2 ^ 32)
    (hfd : ∀ p : Fin H, floorDivWord (BitVec.ofNat 32 p.val) d = BitVec.ofNat 32 (p.val / n))
    (hlt : ∀ p : Fin H, p.val / n < h) (prec1 prec2 : Option ContractPrecision)
    (hin : (⟨4, ![1, 1, h, h]⟩ : Shape).ShapeCasts ⟨2, ![h, h]⟩)
    (hout : (⟨2, ![H, H]⟩ : Shape).ShapeCasts ⟨4, ![1, 1, H, H]⟩)
    (X : FVec Ideal ⟨4, ![1, 1, h, h]⟩ .f32) (i j : Fin H) :
    upsampled (F := Ideal) H h h0 h1 d prec1 prec2 hin hout X (ix4 (0 : Fin 1) (0 : Fin 1) i j)
      = X (ix4 (0 : Fin 1) (0 : Fin 1) (⟨i.val / n, hlt i⟩ : Fin h) (⟨j.val / n, hlt j⟩ : Fin h)) := by
  unfold upsampled
  rw [shapeCast_lead2_apply, upsample_apply H h n h0 h1 d hh hfd hlt, shapeCast_drop2_apply]

end Cert.LibNearestResize

end
-- ==== Proof.LibColumnPick.lean ====
/-
  Picking rows or columns of a matrix by a product with a 0/1 matrix, on the extended reals.

  Two matrices of zeros and ones are read here.  The matrix with one 1 per ROW, entry (p, k) = 1 when p / n = k, multiplied
  on the left of X picks row p / n of X:  (R · X) (p, c) = X (p / n, c).  The matrix with one 1 per COLUMN, entry
  (k, q) = 1 when q / n = k, multiplied on the right of X picks column q / n of X:  (X · C) (i, q) = X (i, q / n).
  Both hold for every X with entries in the extended reals, infinite ones included: a product with the entry 0 is 0,
  so each sum has at most one term that is not 0.

  The matrix with one 1 per column is also given as it is computed on 32-bit words from the row number and the column
  number (the floor quotient of the COLUMN number by a divisor word, compared with the ROW number, the bit converted to
  a float), with its entry read on the extended reals.  General in all extents, the divisor and the precision keys.
-/
import Idealize.ShloMosaic.PureOps.Ideal
import Idealize.ShloMosaic.PureOps.Ideal.Laws
import Idealize.ShloMosaic.Lib.ValueIdx
import Idealize.ShloMosaic.Lib.Pipeline.Value
import proofs.«178900_j67113158967612_1_alg».proof.Proof.LibPlainDot
import proofs.«178900_j67113158967612_1_alg».proof.Proof.LibNearestResize

noncomputable section

open scoped BigOperators

namespace Cert.LibColumnPick

open Idealize.ShloMosaic Idealize.ShloMosaic.ValueIdx Cert.LibNearestResize

/-! ## The two products -/

/-- (R · X) (p, c) = X (p / n, c) for any R whose entry (p, k) is 1 when p / n = k and 0 otherwise. -/
theorem pick_rows (H h N n : ℕ) {φ₁ φ₂ : FTy} (prec : Option ContractPrecision)
    (R : FVec Ideal ⟨2, ![H, h]⟩ φ₁) (X : FVec Ideal ⟨2, ![h, N]⟩ φ₂) (hlt : ∀ p : Fin H, p.val / n < h)
    (hR : ∀ (p : Fin H) (k : Fin h), R (ix2 p k) = if p.val / n = k.val then (1 : EReal) else 0)
    (p : Fin H) (c : Fin N) :
    FloatOps.matmul (DotDims.plain H h N) prec R X (constant ⟨2, ![H, N]⟩ .f32 0x00000000#32) (ix2 p c)
      = X (ix2 (⟨p.val / n, hlt p⟩ : Fin h) c) := by
  refine (Cert.LibPlainDot.matmul_zero_apply H h N prec R X (ix2 p c)).trans ?_
  show ∑ k : Fin h, R (ix2 p k) * X (ix2 k c) = _
  simp only [hR]
  exact sum_indicator_mul (⟨p.val / n, hlt p⟩ : Fin h) fun k => X (ix2 k c)

/-- (X · C) (i, q) = X (i, q / n) for any C whose entry (k, q) is 1 when q / n = k and 0 otherwise. -/
theorem pick_columns (M h W n : ℕ) {φ₁ φ₂ : FTy} (prec : Option ContractPrecision)
    (X : FVec Ideal ⟨2, ![M, h]⟩ φ₁) (C : FVec Ideal ⟨2, ![h, W]⟩ φ₂) (hlt : ∀ q : Fin W, q.val / n < h)
    (hC : ∀ (k : Fin h) (q : Fin W), C (ix2 k q) = if q.val / n = k.val then (1 : EReal) else 0)
    (i : Fin M) (q : Fin W) :
    FloatOps.matmul (DotDims.plain M h W) prec X C (constant ⟨2, ![M, W]⟩ .f32 0x00000000#32) (ix2 i q)
      = X (ix2 i (⟨q.val / n, hlt q⟩ : Fin h)) := by
  refine (Cert.LibPlainDot.matmul_zero_apply M h W prec X C (ix2 i q)).trans ?_
  show ∑ k : Fin h, X (ix2 i k) * C (ix2 k q) = _
  simp only [hC]
  exact sum_mul_indicator (⟨q.val / n, hlt q⟩ : Fin h) fun k => X (ix2 i k)

/-! ## The matrix with one 1 per column, as it is computed -/

section Matrix
variable {F : FTy → Type} [FloatOps F]

/-- The matrix C : [h, W] as a vector program over any extents: row number, column number, floor quotient of the COLUMN
    number by `d` (the quotient rounded toward zero, less one when the signs differ and the remainder is not zero),
    comparison with the row number, conversion. -/
def colMat (h W : ℕ) (h0 : (⟨2, ![h, W]⟩ : Shape).Iotas .tc 32 [0]) (h1 : (⟨2, ![h, W]⟩ : Shape).Iotas .tc 32 [1])
    (d : BitVec 32) : FVec F ⟨2, ![h, W]⟩ .f32 :=
  sitofp .f32 (extui 32 (cmpi .eq
    (select
      (andi
        (cmpi .ne
          (subi (extui 32 (cmpi .sgt (iota .tc ⟨2, ![h, W]⟩ 32 [1] h1) (broadcast ⟨2, ![h, W]⟩ 0#32)) (by decide))
                (extui 32 (cmpi .slt (iota .tc ⟨2, ![h, W]⟩ 32 [1] h1) (broadcast ⟨2, ![h, W]⟩ 0#32)) (by decide)))
          (broadcast ⟨2, ![h, W]⟩ (Scalar.subi (Scalar.extui (Scalar.cmpi .sgt d 0#32)) (Scalar.extui (Scalar.cmpi .slt d 0#32)))))
        (cmpi .ne (remsi (iota .tc ⟨2, ![h, W]⟩ 32 [1] h1) (broadcast ⟨2, ![h, W]⟩ d)) (broadcast ⟨2, ![h, W]⟩ 0#32)))
      (subi (divsi (iota .tc ⟨2, ![h, W]⟩ 32 [1] h1) (broadcast ⟨2, ![h, W]⟩ d)) (broadcast ⟨2, ![h, W]⟩ 1#32))
      (divsi (iota .tc ⟨2, ![h, W]⟩ 32 [1] h1) (broadcast ⟨2, ![h, W]⟩ d)))
    (iota .tc ⟨2, ![h, W]⟩ 32 [0] h0)) (by decide))

/-- Entry (k, q) of C in words: the converted bit "floor quotient of q by d equals k". -/
theorem colMat_apply_word (h W : ℕ) (h0 : (⟨2, ![h, W]⟩ : Shape).Iotas .tc 32 [0])
    (h1 : (⟨2, ![h, W]⟩ : Shape).Iotas .tc 32 [1]) (d : BitVec 32) (k : Fin h) (q : Fin W) :
    colMat (F := F) h W h0 h1 d (ix2 k q)
      = FloatOps.sitofp .f32 ((IntOp.cmpi .eq (floorDivWord (BitVec.ofNat 32 q.val) d) (BitVec.ofNat 32 k.val)).setWidth 32) := by
  have e0 : iota .tc ⟨2, ![h, W]⟩ 32 [0] h0 (ix2 k q) = BitVec.ofNat 32 k.val :=
    iota_single_apply .tc ⟨2, ![h, W]⟩ 32 0 h0 (ix2 k q)
  have e1 : iota .tc ⟨2, ![h, W]⟩ 32 [1] h1 (ix2 k q) = BitVec.ofNat 32 q.val :=
    iota_single_apply .tc ⟨2, ![h, W]⟩ 32 1 h1 (ix2 k q)
  show FloatOps.sitofp .f32 ((IntOp.cmpi .eq (floorDivWord (iota .tc ⟨2, ![h, W]⟩ 32 [1] h1 (ix2 k q)) d)
      (iota .tc ⟨2, ![h, W]⟩ 32 [0] h0 (ix2 k q))).setWidth 32) = _
  rw [e0, e1]

end Matrix

/-- Entry (k, q) of C on the extended reals: 1 when q / n = k, else 0 — given that the word quotient of the column
    number q by d is the natural quotient q / n. -/
theorem colMat_apply (h W n : ℕ) (h0 : (⟨2, ![h, W]⟩ : Shape).Iotas .tc 32 [0])
    (h1 : (⟨2, ![h, W]⟩ : Shape).Iotas .tc 32 [1]) (d : BitVec 32) (hh : h ≤ 2 ^ 32)
    (q : Fin W) (hfd : floorDivWord (BitVec.ofNat 32 q.val) d = BitVec.ofNat 32 (q.val / n)) (hlt : q.val / n < h)
    (k : Fin h) :
    colMat (F := Ideal) h W h0 h1 d (ix2 k q) = if q.val / n = k.val then (1 : EReal) else 0 := by
  rw [colMat_apply_word, hfd]
  exact indicator_word _ _ (by omega) (by have := k.isLt; omega)

end Cert.LibColumnPick

end
-- ==== Proof.MaskedImage.lean ====
/-
  The masked image, as one function of the image and the patch mask.

  An image batch has entries (b, y, x, ch) with b < 64, y, x < 512, ch < 3; the patch mask has one entry per image b and
  per cell of 8 by 8 pixels, (b, y / 8, x / 8).  The masked image multiplies every entry by the mask entry of its cell.

  The same function is also written on the image with its last two axes merged, entries (b, y, q) with q = 3 x + ch
  below 1536: there the cell of column q is q / 24, and (3 x + ch) / 24 = x / 8 because ch < 3.  Merging the axes,
  masking, and splitting them again is masking.
-/
import Idealize.ShloMosaic.PureOps.Ideal
import Idealize.ShloMosaic.Lib.ValueIdx
import Idealize.ShloMosaic.Lib.Pipeline.Value

noncomputable section

namespace Cert.MaskedImage

open Idealize.ShloMosaic Idealize.ShloMosaic.ValueIdx

/-- Image batches, [64, 512, 512, 3]. -/
abbrev Img : Shape := ⟨4, ![64, 512, 512, 3]⟩
/-- The same with the last two axes merged, [64, 512, 1536]. -/
abbrev Merged : Shape := ⟨3, ![64, 512, 1536]⟩
/-- Patch masks, [64, 64, 64]. -/
abbrev Patches : Shape := ⟨3, ![64, 64, 64]⟩

theorem div8_lt (r : Fin 512) : r.val / 8 < 64 := by have := r.isLt; omega
theorem div24_lt (q : Fin 1536) : q.val / 24 < 64 := by have := q.isLt; omega

/-- The cell of pixel (b, y, x, ch): (b, y / 8, x / 8). -/
def cell (i : Img.Idx) : Patches.Idx :=
  ix3 (⟨(i 0).val, (i 0).isLt⟩ : Fin 64)
    (⟨(i 1).val / 8, by have h : (i 1).val < 512 := (i 1).isLt; omega⟩ : Fin 64)
    (⟨(i 2).val / 8, by have h : (i 2).val < 512 := (i 2).isLt; omega⟩ : Fin 64)

/-- The cell of entry (b, y, q) of the merged image: (b, y / 8, q / 24). -/
def mergedCell (j : Merged.Idx) : Patches.Idx :=
  ix3 (⟨(j 0).val, (j 0).isLt⟩ : Fin 64)
    (⟨(j 1).val / 8, by have h : (j 1).val < 512 := (j 1).isLt; omega⟩ : Fin 64)
    (⟨(j 2).val / 24, by have h : (j 2).val < 1536 := (j 2).isLt; omega⟩ : Fin 64)

/-- THE MASKED IMAGE: every entry times the mask entry of its cell. -/
def masked (img : Img.Idx → EReal) (P : Patches.Idx → EReal) : Img.Idx → EReal :=
  fun i => img i * P (cell i)

/-- The same on the merged image. -/
def maskedMerged (img : Merged.Idx → EReal) (P : Patches.Idx → EReal) : Merged.Idx → EReal :=
  fun j => img j * P (mergedCell j)

theorem mergedCell_ix3 (b : Fin 64) (y : Fin 512) (q : Fin 1536) :
    mergedCell (ix3 b y q) = ix3 b (⟨y.val / 8, div8_lt y⟩ : Fin 64) (⟨q.val / 24, div24_lt q⟩ : Fin 64) := rfl

/-- Entry (b, y, x, ch) of the image is entry (b, y, 3 x + ch) of the merged image. -/
theorem merge_apply {α : Type} (v : Img.Idx → α) (h : Img.ShapeCasts Merged) (b : Fin 64) (y x : Fin 512) (ch : Fin 3)
    (q : Fin 1536) (hq : q.val = x.val * 3 + ch.val) :
    shapeCast Merged v h (ix3 b y q) = v (ix4 b y x ch) :=
  shapeCast_apply v h _ (ix4 b y x ch) (by
    rw [Shape.rowMajor_val_three, Shape.rowMajor_val_four]
    show ((b.val * 512 + y.val) * 512 + x.val) * 3 + ch.val = (b.val * 512 + y.val) * 1536 + q.val
    omega)

/-- And back. -/
theorem split_apply {α : Type} (v : Merged.Idx → α) (h : Merged.ShapeCasts Img) (b : Fin 64) (y x : Fin 512) (ch : Fin 3)
    (q : Fin 1536) (hq : q.val = x.val * 3 + ch.val) :
    shapeCast Img v h (ix4 b y x ch) = v (ix3 b y q) :=
  shapeCast_apply v h _ (ix3 b y q) (by
    rw [Shape.rowMajor_val_three, Shape.rowMajor_val_four]
    show (b.val * 512 + y.val) * 1536 + q.val = ((b.val * 512 + y.val) * 512 + x.val) * 3 + ch.val
    omega)

/-- Merging the last two axes, masking with cells of 8 rows and 24 merged columns, and splitting the axes again is the
    masked image: column 3 x + ch of the merged image lies in cell (3 x + ch) / 24 = x / 8. -/
theorem split_maskedMerged (img : Img.Idx → EReal) (P : Patches.Idx → EReal) (h1 : Img.ShapeCasts Merged)
    (h2 : Merged.ShapeCasts Img) :
    shapeCast Img (maskedMerged (shapeCast Merged img h1) P) h2 = masked img P := by
  funext i
  obtain ⟨b, y, x, ch, rfl⟩ : ∃ (b : Fin 64) (y x : Fin 512) (ch : Fin 3), i = ix4 b y x ch :=
    ⟨i 0, i 1, i 2, i 3, eq_ix4 i⟩
  have hq : x.val * 3 + ch.val < 1536 := by have := x.isLt; have := ch.isLt; omega
  rw [split_apply _ h2 b y x ch ⟨x.val * 3 + ch.val, hq⟩ rfl]
  show shapeCast Merged img h1 (ix3 b y ⟨x.val * 3 + ch.val, hq⟩) * P (mergedCell (ix3 b y ⟨x.val * 3 + ch.val, hq⟩))
    = img (ix4 b y x ch) * P (cell (ix4 b y x ch))
  rw [merge_apply img h1 b y x ch ⟨x.val * 3 + ch.val, hq⟩ rfl]
  refine congrArg (fun k => img (ix4 b y x ch) * P k) ?_
  funext a
  apply Fin.ext
  match a with
  | ⟨0, _⟩ => rfl
  | ⟨1, _⟩ => rfl
  | ⟨2, _⟩ =>
    show (x.val * 3 + ch.val) / 24 = x.val / 8
    have := ch.isLt
    omega

end Cert.MaskedImage

end
-- ==== Proof.BlockValue.lean ====
/-
  What the kernel body leaves in its output block, entry by entry.

  At a grid point the body holds one image of the merged batch, a [1, 512, 1536] block, and that image's patch mask, a
  [1, 64, 64] block.  It forms  T = R · mask  with R (y, k) = 1 when y / 8 = k, so  T (y, k) = mask (y / 8, k);  then
  U = T · C  with C (k, q) = 1 when q / 24 = k, so  U (y, q) = T (y, q / 24) = mask (y / 8, q / 24);  and stores
  image (y, q) · U (y, q).  Both matrices of zeros and ones are computed on words from row and column numbers; the word
  quotient of a row number below 512 by 8, and of a column number below 1536 by 24, is the natural quotient (decided
  over those finitely many numbers).  A change of float format is the identity on the extended reals.
-/
import proofs.«178900_j67113158967612_1_alg».proof.Proof.Gen.KernelIdeal.Frame
import proofs.«178900_j67113158967612_1_alg».proof.Proof.LibColumnPick
import proofs.«178900_j67113158967612_1_alg».proof.Proof.LibNearestResize
import proofs.«178900_j67113158967612_1_alg».proof.Proof.MaskedImage
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx
open Cert.LibNearestResize Cert.LibColumnPick Cert.MaskedImage

/-! ## The word quotients -/

/-- The word quotient by 8 of a row number below 512 is the natural quotient. -/
theorem rows_word : ∀ p : Fin 512, floorDivWord (BitVec.ofNat 32 p.val) 8#32 = BitVec.ofNat 32 (p.val / 8) := by
  decide +kernel

/-- The word quotient by 24 of a column number below 1536 is the natural quotient. -/
theorem cols_word : ∀ q : Fin 1536, floorDivWord (BitVec.ofNat 32 q.val) 24#32 = BitVec.ofNat 32 (q.val / 24) := by
  decide +kernel

/-! ## A leading axis of extent one -/

/-- A [1, a, b] block viewed as an [a, b] matrix, read at (i, j), is the block at (0, i, j). -/
theorem drop_lead {α : Type} (a b : ℕ) (v : (⟨3, ![1, a, b]⟩ : Shape).Idx → α)
    (h : (⟨3, ![1, a, b]⟩ : Shape).ShapeCasts ⟨2, ![a, b]⟩) (i : Fin a) (j : Fin b) :
    shapeCast ⟨2, ![a, b]⟩ v h (ix2 i j) = v (ix3 (0 : Fin 1) i j) :=
  shapeCast_apply v h _ (ix3 (0 : Fin 1) i j) (by
    rw [Shape.rowMajor_val_two, Shape.rowMajor_val_three]
    show ((0 : ℕ) * a + i.val) * b + j.val = i.val * b + j.val
    simp)

/-- An [a, b] matrix viewed as a [1, a, b] block, read at (0, i, j), is the matrix at (i, j). -/
theorem add_lead {α : Type} (a b : ℕ) (v : (⟨2, ![a, b]⟩ : Shape).Idx → α)
    (h : (⟨2, ![a, b]⟩ : Shape).ShapeCasts ⟨3, ![1, a, b]⟩) (i : Fin a) (j : Fin b) :
    shapeCast ⟨3, ![1, a, b]⟩ v h (ix3 (0 : Fin 1) i j) = v (ix2 i j) :=
  shapeCast_apply v h _ (ix2 i j) (by
    rw [Shape.rowMajor_val_two, Shape.rowMajor_val_three]
    show i.val * b + j.val = ((0 : ℕ) * a + i.val) * b + j.val
    simp)

/-- An index of a [1, a, b] block has first coordinate 0. -/
theorem exists_lead (a b : ℕ) (y : (⟨3, ![1, a, b]⟩ : Shape).Idx) :
    ∃ (i : Fin a) (j : Fin b), y = ix3 (0 : Fin 1) i j :=
  ⟨y 1, y 2, by
    funext d
    match d with
    | ⟨0, _⟩ => exact Fin.ext (by have h : (y 0).val < 1 := (y 0).isLt; show (y 0).val = 0; omega)
    | ⟨1, _⟩ => rfl
    | ⟨2, _⟩ => rfl⟩

/-! ## The two payloads as products with the matrices of zeros and ones -/

section
variable {F : FTy → Type} [FloatOps F]

/-- The first product: R · (the mask block as a matrix) into the zero matrix. -/
theorem pay2_eq (v30 : Vec F S1x64x64 .f32) :
    k0_pay2 v30 = matmul (DotDims.plain 512 64 64) none
      (truncf .bf16 (repMat (F := F) 512 64 iota_S512x64_d0_w32 iota_S512x64_d1_w32 8#32) bitsLt_bf16_f32)
      (truncf .bf16 (shapeCast S64x64 v30 shapeCasts_S1x64x64_S64x64) bitsLt_bf16_f32)
      (constant S512x64 .f32 0x00000000#32) := rfl

/-- The stored value: the image block as a matrix, times (the first product) · C into the zero matrix, as a block. -/
theorem pay1_eq (v33 : FVec F S512x64 .f32) (v66 : Vec F S1x512x1536 .f32) :
    k0_pay1 v33 (iota .tc S64x1536 32 [1] iota_S64x1536_d1_w32) (iota .tc S64x1536 32 [0] iota_S64x1536_d0_w32) 24#32
        k0_pay3 k0_pay4 v66
      = shapeCast S1x512x1536
          (mulf (shapeCast S512x1536 v66 shapeCasts_S1x512x1536_S512x1536)
            (matmul (DotDims.plain 512 64 1536) none (truncf .bf16 v33 bitsLt_bf16_f32)
              (truncf .bf16 (colMat (F := F) 64 1536 iota_S64x1536_d0_w32 iota_S64x1536_d1_w32 24#32) bitsLt_bf16_f32)
              (constant S512x1536 .f32 0x00000000#32)))
          shapeCasts_S512x1536_S1x512x1536 := rfl

end

/-! ## On the extended reals -/

/-- The first product picks row y / 8 of the mask block. -/
theorem rows_picked (x1 : Vec Ideal S1x64x64 .f32) (y : Fin 512) (k : Fin 64) :
    k0_pay2 (F := Ideal) x1 (ix2 y k) = x1 (ix3 (0 : Fin 1) (⟨y.val / 8, div8_lt y⟩ : Fin 64) k) := by
  rw [pay2_eq]
  refine (pick_rows 512 64 64 8 none _ _ div8_lt (fun p l => ?_) y k).trans ?_
  · exact repMat_apply 512 64 8 _ _ 8#32 (by norm_num) p (rows_word p) (div8_lt p) l
  · exact drop_lead 64 64 x1 _ _ k

/-- THE BLOCK the body stores: entry (0, y, q) is the image entry times the mask entry (0, y / 8, q / 24). -/
theorem stored_apply (x0 : Vec Ideal S1x512x1536 .f32) (x1 : Vec Ideal S1x64x64 .f32) (y : Fin 512) (q : Fin 1536) :
    k0_pay1 (F := Ideal) (k0_pay2 x1) (iota .tc S64x1536 32 [1] iota_S64x1536_d1_w32)
        (iota .tc S64x1536 32 [0] iota_S64x1536_d0_w32) 24#32 k0_pay3 k0_pay4 x0 (ix3 (0 : Fin 1) y q)
      = (x0 (ix3 (0 : Fin 1) y q) : EReal)
        * (x1 (ix3 (0 : Fin 1) (⟨y.val / 8, div8_lt y⟩ : Fin 64) (⟨q.val / 24, div24_lt q⟩ : Fin 64)) : EReal) := by
  rw [pay1_eq]
  refine (add_lead 512 1536 _ _ y q).trans ?_
  refine congrArg₂ (fun a b : EReal => a * b) (drop_lead 512 1536 x0 _ y q) ?_
  refine (pick_columns 512 64 1536 24 none _ _ div24_lt (fun k p => ?_) y q).trans ?_
  · exact colMat_apply 64 1536 24 _ _ 24#32 (by norm_num) p (cols_word p) (div24_lt p) k
  · exact rows_picked x1 y _

end Cert.KernelIdeal.Block

end
-- ==== Proof.RegionValue.lean ====
/-
  The merged output array after the region: the merged image masked.

  The region has one grid point per image.  At point t the body holds image t of the merged batch and mask t of the
  patch masks, and what it writes back is block t of the output: rows and columns keep their numbers inside the block,
  so entry (0, y, q) of the block is entry (t, y, q) of the array, and the mask entry (0, y / 8, q / 24) of the mask
  block is entry (t, y / 8, q / 24) of the patch masks.  The 64 blocks cover the output array (entry (b, y, q) lies in
  block b), so after the region the array is the merged image masked, index by index.
-/
import proofs.«178900_j67113158967612_1_alg».proof.Proof.Gen.KernelIdeal.Frame
import proofs.«178900_j67113158967612_1_alg».proof.Proof.BlockValue
import proofs.«178900_j67113158967612_1_alg».proof.Proof.MaskedImage
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.SL.Sem
open Idealize.ShloMosaic.ValueIdx Cert.MaskedImage
open Idealize.ShloMosaic.Pipeline (Dat)

variable (m : (ℓ : Loc nD τ sig) → Buf (Elt Ideal) ℓ)

theorem zeros : (![0, 0, 0] : Fin 3 → Nat) = fun _ => 0 := funext fun a => by fin_cases a <;> rfl

/-- The three index maps, decided over the 64 grid points: block t of each window is block (t, 0, 0) of its array. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- WHAT POINT t WRITES BACK is block t of the merged image masked, the arrays as the region finds them. -/
theorem flushed_eq (c : Dev nD) (t : Fin cfg0.N) :
    (dats m 0 c).flushed 2 t
      = ((cfg0.win 2).blk t).view.read (Elt Ideal) (maskedMerged (V m c main_v20) (V m c main_v19)) := by
  show (cfg0.win 2).cut (grid0.coords t) ((dats m 0 c).after 2 t) = _
  rw [after0_2]
  unfold out0_2
  rw [View.canon_unit_zero zeros]
  simp only [View.ld_unit_zero (S := S1x512x1536) zeros, View.ld_unit_zero (S := S1x64x64) zeros]
  obtain ⟨e00, e01, e02, e10, e11, e12, e20, e21, e22⟩ := index_facts t
  funext j
  obtain ⟨y, q, rfl⟩ := Block.exists_lead 512 1536 j
  refine (Block.stored_apply (iblk m c 0 t) (iblk m c 1 t) y q).trans ?_
  show @HMul.hMul EReal EReal EReal instHMul
        (V m c main_v20 (((cfg0.win 0).blk t).view.emb (ix3 (0 : Fin 1) y q)))
        (V m c main_v19 (((cfg0.win 1).blk t).view.emb
            (ix3 (0 : Fin 1) (⟨y.val / 8, div8_lt y⟩ : Fin 64) (⟨q.val / 24, div24_lt q⟩ : Fin 64))))
      = @HMul.hMul EReal EReal EReal instHMul
        (V m c main_v20 (((cfg0.win 2).blk t).view.emb (ix3 (0 : Fin 1) y q)))
        (V m c main_v19 (mergedCell (((cfg0.win 2).blk t).view.emb (ix3 (0 : Fin 1) y q))))
  have h0 : ((cfg0.win 0).blk t).view.emb (ix3 (0 : Fin 1) y q) = ((cfg0.win 2).blk t).view.emb (ix3 (0 : Fin 1) y q) := by
    funext a; apply Fin.ext
    match a with
    | ⟨0, _⟩ => show win0_0.index t (0 : Fin 3) * 1 + 1 * (0 : ℕ) = win0_2.index t (0 : Fin 3) * 1 + 1 * (0 : ℕ); omega
    | ⟨1, _⟩ => show win0_0.index t (1 : Fin 3) * 512 + 1 * y.val = win0_2.index t (1 : Fin 3) * 512 + 1 * y.val; omega
    | ⟨2, _⟩ => show win0_0.index t (2 : Fin 3) * 1536 + 1 * q.val = win0_2.index t (2 : Fin 3) * 1536 + 1 * q.val; omega
  have h1 : ((cfg0.win 1).blk t).view.emb
        (ix3 (0 : Fin 1) (⟨y.val / 8, div8_lt y⟩ : Fin 64) (⟨q.val / 24, div24_lt q⟩ : Fin 64))
      = mergedCell (((cfg0.win 2).blk t).view.emb (ix3 (0 : Fin 1) y q)) := by
    funext a; apply Fin.ext
    match a with
    | ⟨0, _⟩ => show win0_1.index t (0 : Fin 3) * 1 + 1 * (0 : ℕ) = win0_2.index t (0 : Fin 3) * 1 + 1 * (0 : ℕ); omega
    | ⟨1, _⟩ => show win0_1.index t (1 : Fin 3) * 64 + 1 * (y.val / 8) = (win0_2.index t (1 : Fin 3) * 512 + 1 * y.val) / 8; omega
    | ⟨2, _⟩ => show win0_1.index t (2 : Fin 3) * 64 + 1 * (q.val / 24) = (win0_2.index t (2 : Fin 3) * 1536 + 1 * q.val) / 24; omega
  rw [h0, h1]

/-- An index of the output array is in point t's block iff each coordinate is in the block's range on its axis. -/
theorem mem_blk (t : Fin cfg0.N) (i : S64x512x1536.Idx) :
    i ∈ ((cfg0.win 2).blk t).view.set ↔ ∀ a : Fin 3, win0_2.index t a * S1x512x1536.size a ≤ (i a).val
      ∧ (i a).val < win0_2.index t a * S1x512x1536.size a + S1x512x1536.size a := by
  show i ∈ ((View.whole main_v21).slice (win0_2.rect t)).set ↔ _
  rw [View.set_slice_whole, Rect.mem_set_unit]
  exact Iff.rfl

/-- Every index (b, y, q) of the output array is in block b. -/
theorem covered (i : S64x512x1536.Idx) :
    ∃ t : Fin cfg0.N, (cfg0.win 2).flush t = true ∧ i ∈ ((cfg0.win 2).blk t).view.set := by
  have h0 : (i 0).val < 64 := (i 0).isLt
  have h1 : (i 1).val < 512 := (i 1).isLt
  have h2 : (i 2).val < 1536 := (i 2).isLt
  obtain ⟨-, -, -, -, -, -, e0, e1, e2⟩ := index_facts ⟨(i 0).val, h0⟩
  have e0' : win0_2.index ⟨(i 0).val, h0⟩ (0 : Fin 3) = (i 0).val := e0
  refine ⟨⟨(i 0).val, h0⟩, flush0_2 _, ?_⟩
  rw [mem_blk]
  intro a
  match a with
  | ⟨0, _⟩ =>
    show win0_2.index ⟨(i 0).val, h0⟩ (0 : Fin 3) * 1 ≤ (i 0).val
      ∧ (i 0).val < win0_2.index ⟨(i 0).val, h0⟩ (0 : Fin 3) * 1 + 1
    omega
  | ⟨1, _⟩ =>
    show win0_2.index ⟨(i 0).val, h0⟩ (1 : Fin 3) * 512 ≤ (i 1).val
      ∧ (i 1).val < win0_2.index ⟨(i 0).val, h0⟩ (1 : Fin 3) * 512 + 512
    omega
  | ⟨2, _⟩ =>
    show win0_2.index ⟨(i 0).val, h0⟩ (2 : Fin 3) * 1536 ≤ (i 2).val
      ∧ (i 2).val < win0_2.index ⟨(i 0).val, h0⟩ (2 : Fin 3) * 1536 + 1536
    omega

/-- THE OUTPUT ARRAY after the region: the merged image masked. -/
theorem final (c : Dev nD) :
    (dats m 0 c).arrAt 2 cfg0.N = maskedMerged (V m c main_v20) (V m c main_v19) :=
  (dats m 0 c).arrAt_eq_of_cover 2 _ (fun t _ => flushed_eq m c t) covered

end Cert.KernelIdeal.Region

end
-- ==== Proof.KernelValue.lean ====
/-
  The kernel's result is the masked image.

  Before the region the program builds the patch mask from the index argument, and merges the image's last two axes;
  the region leaves the merged image masked (cells of 8 rows and 24 merged columns); after the region the program
  splits the merged axis again.  Merging, masking so, and splitting is masking with cells of 8 by 8 pixels.
  The patch mask the region finds is the same composition of operations of the index argument as the reference's.
-/
import proofs.«178900_j67113158967612_1_alg».proof.Proof.Gen.KernelIdeal.Frame
import proofs.«178900_j67113158967612_1_alg».proof.Proof.Gen.ReferenceIdeal.Read
import proofs.«178900_j67113158967612_1_alg».proof.Proof.RegionValue
import proofs.«178900_j67113158967612_1_alg».proof.Proof.MaskedImage
import Idealize.ShloMosaic.Lib.Pipeline.Value
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo Cert.MaskedImage

variable (m : (ℓ : Loc nD τ sig) → Buf (Elt Ideal) ℓ) (ρ : Dev nD → PrngReg)

/-- The merged image the region finds: the image argument with its last two axes merged. -/
theorem merged_image (c : Dev nD) :
    (V m c main_v20 : Merged.Idx → EReal)
      = shapeCast Merged (m ((c : Thread nD τ).loc main_arg0)) shapeCasts_S64x512x512x3_S64x512x1536 := by
  show StableHlo.after hostOps0 (fun b => m (c, b)) (Proc.devRef .tc main_v20) = _
  after_results
  rfl

/-- The patch mask the region finds: the reference's composition of operations, of the kernel's index argument. -/
theorem patch_mask (c : Dev nD) :
    (V m c main_v19 : Patches.Idx → EReal)
      = Cert.ReferenceIdeal.Read.val_main_v19 (F := Ideal) (m ((c : Thread nD τ).loc main_arg1)) := by
  show StableHlo.after hostOps0 (fun b => m (c, b)) (Proc.devRef .tc main_v19) = _
  after_results_simp
  rfl

/-- The program's result after the region: the output array with its merged axis split. -/
theorem tail_eq (c : Dev nD) :
    (Pipeline.afterTail₀ cfgs (dats m) 0 (V0 m) [hostOps1] c main_v22 : Img.Idx → EReal)
      = shapeCast Img ((dats m 0 c).arrAt 2 cfg0.N) shapeCasts_S64x512x1536_S64x512x512x3 := by
  unfold Pipeline.afterTail₀
  show StableHlo.after hostOps1 _ (Proc.devRef .tc main_v22) = _
  after_results
  refine Eq.trans (b := shapeCast Img (Pipeline.withArrays spec0 c (V0 m c) (fun w => (dats m 0 c).arrAt w cfg0.N)
      (Proc.devRef .tc (Pipeline.arrRef spec0 2))) shapeCasts_S64x512x1536_S64x512x512x3) rfl ?_
  rw [Pipeline.withArrays_arr spec0 launch0.win.arr_inj c _ _ 2]

/-- The program's result: the image argument masked by the patch mask. -/
theorem result_eq (c : Dev nD) :
    (Pipeline.afterTail₀ cfgs (dats m) 0 (V0 m) [hostOps1] c main_v22 : Img.Idx → EReal)
      = masked (m ((c : Thread nD τ).loc main_arg0))
          (Cert.ReferenceIdeal.Read.val_main_v19 (F := Ideal) (m ((c : Thread nD τ).loc main_arg1))) := by
  rw [tail_eq, Region.final m c, merged_image m c, patch_mask m c]
  exact split_maskedMerged _ _ _ _

/-- THE RUN: every weakly fair execution of the program ends, with the result at the masked image and the arguments
    unchanged. -/
theorem run : θ_run defs (onTc (τ := τ) (main (F := Ideal))) ⟨m, fun _ => 0, ρ⟩ fun r => ∀ c : Dev nD,
      r.2.mem ((c.tc : Thread nD τ).loc main_v22)
        = masked (m ((c.tc : Thread nD τ).loc main_arg0))
            (Cert.ReferenceIdeal.Read.val_main_v19 (F := Ideal) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v22 (Pipeline.mem_restRefs_of main_v22 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Result

end
-- ==== Proof.ReferenceValue.lean ====
/-
  The reference's result is the masked image.

  The reference enlarges the patch mask by repeating every row 8 times and then every column 8 times, each repeat
  written as a broadcast along a new axis of extent 8 followed by a merge of that axis into its neighbour, adds a
  trailing axis of extent one, repeats it over the 3 channels, and multiplies the image by the result.  Followed
  backwards from pixel (b, y, x, ch), these steps read the patch mask at (b, y / 8, x / 8): the pixel's cell.
-/
import proofs.«178900_j67113158967612_1_alg».proof.Proof.Gen.ReferenceIdeal.Read
import proofs.«178900_j67113158967612_1_alg».proof.Proof.MaskedImage
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.MaskedImage

/-- The six layout steps between the patch mask and the multiplication read the mask at the pixel's cell. -/
theorem steps_read_cell (i : S64x512x512x3.Idx) :
    idx_main_v20 (idx_main_v21 (idx_main_v22 (idx_main_v23 (idx_main_v24 (idx_main_v25 i))))) = cell i := by
  have h0 : (i 0).val < 64 := (i 0).isLt
  have h1 : (i 1).val < 512 := (i 1).isLt
  have h2 : (i 2).val < 512 := (i 2).isLt
  funext a
  apply Fin.ext
  match a with
  | ⟨0, _⟩ =>
    show (((((i 0).val * 512 + (i 1).val) * 512 + (i 2).val) / 262144 * 512 + (((i 0).val * 512 + (i 1).val) * 512 + (i 2).val) / 512 % 512) * 64 + (((i 0).val * 512 + (i 1).val) * 512 + (i 2).val) / 8 % 64) / 32768 = (i 0).val
    omega
  | ⟨1, _⟩ =>
    show (((((i 0).val * 512 + (i 1).val) * 512 + (i 2).val) / 262144 * 512 + (((i 0).val * 512 + (i 1).val) * 512 + (i 2).val) / 512 % 512) * 64 + (((i 0).val * 512 + (i 1).val) * 512 + (i 2).val) / 8 % 64) / 512 % 64 = (i 1).val / 8
    omega
  | ⟨2, _⟩ =>
    show (((((i 0).val * 512 + (i 1).val) * 512 + (i 2).val) / 262144 * 512 + (((i 0).val * 512 + (i 1).val) * 512 + (i 2).val) / 512 % 512) * 64 + (((i 0).val * 512 + (i 1).val) * 512 + (i 2).val) / 8 % 64) % 64 = (i 2).val / 8
    omega

/-- THE REFERENCE'S RESULT: the image masked by the patch mask its scatter builds. -/
theorem result_eq (x0 : (⟨S64x512x512x3, .f32⟩ : BufTy).Contents (Elt Ideal))
    (x1 : (⟨S64x3072, .i32⟩ : BufTy).Contents (Elt Ideal)) :
    val_main_v26 (F := Ideal) x0 x1 = masked x0 (val_main_v19 (F := Ideal) x1) := by
  funext i
  rw [val_main_v26_apply, val_main_v25_apply, val_main_v24_apply, val_main_v23_apply, val_main_v22_apply,
    val_main_v21_apply, val_main_v20_apply, steps_read_cell]
  rfl

end Cert.ReferenceIdeal.RefValue

end
-- ==== Proof.lean ====
/-
  Random masking of image patches: the kernel against its reference, on the extended reals.

  Both programs build, from the index argument, a patch mask of zeros and ones with one entry per image and per cell of
  8 by 8 pixels (ones everywhere, zeros scattered at the given cells), by the same operations.  The reference enlarges
  the mask by repeating every row and every column 8 times and multiplies the image by it.  The kernel merges the
  image's last two axes (pixel column x and channel ch become column 3 x + ch), and for each image multiplies it by
  R · mask · C, where R (y, k) = 1 when y / 8 = k and C (k, q) = 1 when q / 24 = k, all other entries 0; it then splits
  the merged axis again.

  On the extended reals 0 · v = 0 for every v, so a sum with one term that is not 0 is that term:
  (R · mask · C) (y, q) = mask (y / 8, q / 24), and (3 x + ch) / 24 = x / 8 since ch < 3.  Both results are therefore
  the image entry times the mask entry of the pixel's cell, index by index; no finiteness of the image is used.

  The kernel's rewrite to the exact reading changed no operation, so the fourth conjunct is `True`.
-/
import proofs.«178900_j67113158967612_1_alg».proof.Defs
import proofs.«178900_j67113158967612_1_alg».proof.Proof.Gen.Kernel
import proofs.«178900_j67113158967612_1_alg».proof.Proof.Gen.Kernel.Skeleton
import proofs.«178900_j67113158967612_1_alg».proof.Proof.Gen.Kernel.Launch
import proofs.«178900_j67113158967612_1_alg».proof.Proof.Gen.Kernel.Points
import proofs.«178900_j67113158967612_1_alg».proof.Proof.Gen.Kernel.Frame
import proofs.«178900_j67113158967612_1_alg».proof.Proof.Gen.KernelIdeal
import proofs.«178900_j67113158967612_1_alg».proof.Proof.Gen.KernelIdeal.Skeleton
import proofs.«178900_j67113158967612_1_alg».proof.Proof.Gen.KernelIdeal.Launch
import proofs.«178900_j67113158967612_1_alg».proof.Proof.Gen.KernelIdeal.Points
import proofs.«178900_j67113158967612_1_alg».proof.Proof.Gen.KernelIdeal.Frame
import proofs.«178900_j67113158967612_1_alg».proof.Proof.Gen.ReferenceIdeal
import proofs.«178900_j67113158967612_1_alg».proof.Proof.Gen.ReferenceIdeal.Run
import proofs.«178900_j67113158967612_1_alg».proof.Proof.Gen.ReferenceIdeal.Read
import proofs.«178900_j67113158967612_1_alg».proof.Proof.Gen.Pre_finite_inputs
import proofs.«178900_j67113158967612_1_alg».proof.Proof.KernelValue
import proofs.«178900_j67113158967612_1_alg».proof.Proof.ReferenceValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The same of the kernel read on the extended reals. -/
theorem frame_kernelIdeal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the two arguments, both programs end with the image masked by the patch mask of the
    index argument. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v26_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
